-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x384 : Shape := ⟨3, ![8, 2048, 384]⟩
abbrev S384x384 : Shape := ⟨2, ![384, 384]⟩
abbrev S_ : Shape := ⟨0, ![]⟩

class Facts : Prop where
  bcast_S_S8x2048x384 : S_.BroadcastsInDim S8x2048x384 (![] : Fin 0 → Fin S8x2048x384.rank)
  reducesTo_S8x2048x384_S_d0_1_2 : S8x2048x384.ReducesTo [0, 1, 2] S_
  h_S_ : 0 < S_.numel
  bcast_S_S384x384 : S_.BroadcastsInDim S384x384 (![] : Fin 0 → Fin S384x384.rank)
  reducesTo_S384x384_S_d0_1 : S384x384.ReducesTo [0, 1] S_

variable [Facts]

def fn_part1 {F : FTy → Type} [FloatOps F] (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  main_v18

def fn {F : FTy → Type} [FloatOps F] (main_arg0 : FVec F S8x2048x384 .f32) (main_arg1 : FVec F S384x384 .f32) (main_arg2 : FVec F S384x384 .f32) (main_arg3 : FVec F S384x384 .f32) : IVec S_ 1 :=
  let main_v0 : FVec F S8x2048x384 .f32 := Host.absf main_arg0
  let main_cst : FVec F S_ .f32 := constant S_ .f32 0x7F800000#32
  let main_v1 : FVec F S8x2048x384 .f32 := broadcastInDim S8x2048x384 ![] bcast_S_S8x2048x384 main_cst
  let main_v2 : IVec S8x2048x384 1 := cmpf .olt main_v0 main_v1
  let main_c : IVec S_ 1 := constantI S_ 1 1#1
  let main_v3 : IVec S_ 1 := (fun x v => Host.reduce IntOp.andi x v reducesTo_S8x2048x384_S_d0_1_2 h_S_) main_v2 main_c
  let main_v4 : FVec F S384x384 .f32 := Host.absf main_arg1
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x384 .f32 := Host.absf main_arg2
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_v13 main_v16
-- ==== Kernel.lean ====
abbrev S8x2048x384 : Shape := ⟨3, ![8, 2048, 384]⟩
abbrev S384x384 : Shape := ⟨2, ![384, 384]⟩
abbrev S1x2048x384 : Shape := ⟨3, ![1, 2048, 384]⟩
abbrev S1x512x384 : Shape := ⟨3, ![1, 512, 384]⟩
abbrev S2048x384 : Shape := ⟨2, ![2048, 384]⟩
abbrev S512x384 : Shape := ⟨2, ![512, 384]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .bf16⟩
  | .hbm, ⟨5, _⟩ => ⟨S384x384, .bf16⟩
  | .hbm, ⟨6, _⟩ => ⟨S384x384, .bf16⟩
  | .hbm, ⟨7, _⟩ => ⟨S384x384, .bf16⟩
  | .hbm, ⟨8, _⟩ => ⟨S384x384, .bf16⟩
  | .hbm, ⟨9, _⟩ => ⟨S384x384, .bf16⟩
  | .hbm, ⟨10, _⟩ => ⟨S8x2048x384, .f32⟩
  | .local _ .vmem, ⟨0, _⟩ => ⟨S1x2048x384, .f32⟩
  | .local _ .vmem, ⟨1, _⟩ => ⟨S1x2048x384, .f32⟩
  | .local _ .vmem, ⟨2, _⟩ => ⟨S384x384, .bf16⟩
  | .local _ .vmem, ⟨3, _⟩ => ⟨S384x384, .bf16⟩
  | .local _ .vmem, ⟨4, _⟩ => ⟨S384x384, .bf16⟩
  | .local _ .vmem, ⟨5, _⟩ => ⟨S1x512x384, .f32⟩
  | .local _ .vmem, ⟨6, _⟩ => ⟨S1x512x384, .f32⟩
  | .local _ .vmem, ⟨7, _⟩ => ⟨S2048x384, .bf16⟩
  | .local _ .vmem, ⟨8, _⟩ => ⟨S2048x384, .bf16⟩
  | _, _ => ⟨S8x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S384x384_S384x384_1_0 : S384x384.Transposes [1, 0] S384x384
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  packedbf16_S2048x384_S2048x384_0_0 : (Rect.unit (s := S2048x384) ![0, 0] S2048x384.size inb_S2048x384_S2048x384_0_0).PackedRows (EltTy.packing .bf16)
  h_S1x512x384 : 0 < S1x512x384.numel
  shapeCasts_S1x512x384_S512x384 : S1x512x384.ShapeCasts S512x384
  reduces_S512x2048_S512 : S512x2048.Reduces [1] S512
  shapeCasts_S512_S512x1 : S512.ShapeCasts S512x1
  broadcasts_S512x1_S512x2048 : S512x1.Broadcasts S512x2048
  inb_S1x512x384_S1x512x384_0_0_0 : ∀ a, (![0, 0, 0] : Fin 3 → Nat) a + S1x512x384.size a ≤ S1x512x384.size a
  shapeCasts_S512x384_S1x512x384 : S512x384.ShapeCasts S1x512x384
  dot_S2048x384_S384x384_S2048x384_1_0_0_1_n_n_wf : DotDims.WF S2048x384 S384x384 S2048x384 [1] [0] [0] [1] [] []
  dot_S512x384_S384x384_S512x384_1_0_0_1_n_n_wf : DotDims.WF S512x384 S384x384 S512x384 [1] [0] [0] [1] [] []
  dot_S512x384_S2048x384_S512x2048_1_1_0_0_n_n_wf : DotDims.WF S512x384 S2048x384 S512x2048 [1] [1] [0] [0] [] []
  dot_S512x2048_S2048x384_S512x384_1_0_0_1_n_n_wf : DotDims.WF S512x2048 S2048x384 S512x384 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x384.size a ≤ S1x2048x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x384.size a ≤ S8x2048x384.size a
  hwx0_0 : ∀ i : grid0.Coords, EltTy.bits .f32 = 32 ∨ (Rect.block (s := S8x2048x384) S1x2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .bf16 = 32 ∨ (Rect.block (s := S384x384) S384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x384.size a ≤ S8x2048x384.size a
  hwx0_4 : ∀ i : grid0.Coords, EltTy.bits .f32 = 32 ∨ (Rect.block (s := S8x2048x384) S1x512x384.size (cc0_transform_4 i) (hinb0_4 i)).WholeWords (EltTy.packing .f32)

variable [Facts₀]

def dot_S2048x384_S384x384_S2048x384_1_0_0_1_n_n : DotDims S2048x384 S384x384 S2048x384 where
  lhsContracting := [1]
  rhsContracting := [0]
  lhsNonContracting := [0]
  rhsNonContracting := [1]
  lhsBatch := []
  rhsBatch := []
  wf := dot_S2048x384_S384x384_S2048x384_1_0_0_1_n_n_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S2048x384_S512x2048_1_1_0_0_n_n : DotDims S512x384 S2048x384 S512x2048 where
  lhsContracting := [1]
  rhsContracting := [1]
  lhsNonContracting := [0]
  rhsNonContracting := [0]
  lhsBatch := []
  rhsBatch := []
  wf := dot_S512x384_S2048x384_S512x2048_1_1_0_0_n_n_wf
def dot_S512x2048_S2048x384_S512x384_1_0_0_1_n_n : DotDims S512x2048 S2048x384 S512x384 where
  lhsContracting := [1]
  rhsContracting := [0]
  lhsNonContracting := [0]
  rhsNonContracting := [1]
  lhsBatch := []
  rhsBatch := []
  wf := dot_S512x2048_S2048x384_S512x384_1_0_0_1_n_n_wf

abbrev win0_0 : Pipeline.Window sig grid0 :=
  Pipeline.Window.ofSpec (Memref.whole main_arg0) S1x2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x384 : Shape := ⟨3, ![8, 2048, 384]⟩
abbrev S384x384 : Shape := ⟨2, ![384, 384]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S8x2048x384, .f32⟩
  | .hbm, ⟨5, _⟩ => ⟨S8x2048x384, .f32⟩
  | .hbm, ⟨6, _⟩ => ⟨S8x2048x384, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x384, .f32⟩
  | _, _ => ⟨S8x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x384_S384x384_S8x2048x384_2_1_01_0_n_n_wf : DotDims.WF S8x2048x384 S384x384 S8x2048x384 [2] [1] [0, 1] [0] [] []
  dot_S8x2048x384_S8x2048x384_S8x2048x2048_2_2_1_1_0_0_wf : DotDims.WF S8x2048x384 S8x2048x384 S8x2048x2048 [2] [2] [1] [1] [0] [0]
  dot_S8x2048x2048_S8x2048x384_S8x2048x384_2_1_1_2_0_0_wf : DotDims.WF S8x2048x2048 S8x2048x384 S8x2048x384 [2] [1] [1] [2] [0] [0]

variable [Facts₀]

def dot_S8x2048x384_S384x384_S8x2048x384_2_1_01_0_n_n : DotDims S8x2048x384 S384x384 S8x2048x384 where
  lhsContracting := [2]
  rhsContracting := [1]
  lhsNonContracting := [0, 1]
  rhsNonContracting := [0]
  lhsBatch := []
  rhsBatch := []
  wf := dot_S8x2048x384_S384x384_S8x2048x384_2_1_01_0_n_n_wf
def dot_S8x2048x384_S8x2048x384_S8x2048x2048_2_2_1_1_0_0 : DotDims S8x2048x384 S8x2048x384 S8x2048x2048 where
  lhsContracting := [2]
  rhsContracting := [2]
  lhsNonContracting := [1]
  rhsNonContracting := [1]
  lhsBatch := [0]
  rhsBatch := [0]
  wf := dot_S8x2048x384_S8x2048x384_S8x2048x2048_2_2_1_1_0_0_wf
def dot_S8x2048x2048_S8x2048x384_S8x2048x384_2_1_1_2_0_0 : DotDims S8x2048x2048 S8x2048x384 S8x2048x384 where
  lhsContracting := [2]
  rhsContracting := [1]
  lhsNonContracting := [1]
  rhsNonContracting := [2]
  lhsBatch := [0]
  rhsBatch := [0]
  wf := dot_S8x2048x2048_S8x2048x384_S8x2048x384_2_1_1_2_0_0_wf

class Facts : Prop extends Facts₀ where

variable [Facts]
-- ==== Proof.Pieces.lean ====
/-
  What one grid point leaves behind, as values of what it loads.

  At the first query tile of a batch the body projects the whole batch onto the key and value weights and stores
  the two results in its two scratch buffers; at every tile it then reads 512 rows of the batch, projects them onto
  the query weight, and forms the softmax-weighted sum of the stored values. So the first tile's output is computed
  from the keys and values it has just stored, a later tile's from those the scratch still holds.
  Each statement below says that the contents a case leaves in a buffer, the covering store read back, is the
  stored expression of the loaded blocks.
-/
import proofs.«123860_j51771535786510_2_alg».proof.Proof.Gen.KernelIdeal.Frame
import Idealize.ShloMosaic.Lib.Pipeline.Value
import Idealize.ShloMosaic.Lib.Tactic

noncomputable section

namespace Cert.Attn.Kernel

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the batch a grid point's queries come from: the batch read from the point's row offset on. -/
abbrev qrows (i : grid0.Coords) (x0 : Vec F S1x2048x384 .f32) : Vec F S1x512x384 .f32 :=
  View.ld x0 (Rect.unit (s := S1x2048x384) (k0_off1 i) S1x512x384.size (k0_off1_inb i))

/-- At a batch's first tile the key scratch is left holding the batch projected onto the key weight. -/
theorem keys_first (c : Dev nD) (i : grid0.Coords) (arg2 : Memref sig .tc .vmem S1x2048x384 .f32) (harg2 : arg2.IsWhole) (arg3 : Memref sig .tc .vmem S384x384 .bf16) (harg3 : arg3.IsWhole) (arg4 : Memref sig .tc .vmem S384x384 .bf16) (harg4 : arg4.IsWhole) (arg5 : Memref sig .tc .vmem S384x384 .bf16) (harg5 : arg5.IsWhole) (arg6 : Memref sig .tc .vmem S1x512x384 .f32) (harg6 : arg6.IsWhole) (arg7 : Memref sig .tc .vmem S2048x384 .bf16) (harg7 : arg7.IsWhole) (arg8 : Memref sig .tc .vmem S2048x384 .bf16) (harg8 : arg8.IsWhole) (hc0 : cond0_0 i)
    (x0 : Vec F S1x2048x384 .f32) (x1 x2 x3 : Vec F S384x384 .bf16) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_run_names
  rw [View.canon_unit_zero hz2]
  simp only [View.readAt_eq_ld, harg2.read_unread, harg4.read_unread, View.ld_unit_zero (S := S1x2048x384) hz3,
    View.ld_unit_zero (S := S384x384) hz2]

/-- At a batch's first tile the value scratch is left holding the batch projected onto the value weight. -/
theorem vals_first (c : Dev nD) (i : grid0.Coords) (arg2 : Memref sig .tc .vmem S1x2048x384 .f32) (harg2 : arg2.IsWhole) (arg3 : Memref sig .tc .vmem S384x384 .bf16) (harg3 : arg3.IsWhole) (arg4 : Memref sig .tc .vmem S384x384 .bf16) (harg4 : arg4.IsWhole) (arg5 : Memref sig .tc .vmem S384x384 .bf16) (harg5 : arg5.IsWhole) (arg6 : Memref sig .tc .vmem S1x512x384 .f32) (harg6 : arg6.IsWhole) (arg7 : Memref sig .tc .vmem S2048x384 .bf16) (harg7 : arg7.IsWhole) (arg8 : Memref sig .tc .vmem S2048x384 .bf16) (harg8 : arg8.IsWhole) (hc0 : cond0_0 i)
    (x0 : Vec F S1x2048x384 .f32) (x1 x2 x3 : Vec F S384x384 .bf16) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_run_names
  rw [View.canon_unit_zero hz2]
  simp only [View.readAt_eq_ld, harg2.read_unread, harg5.read_unread, View.ld_unit_zero (S := S1x2048x384) hz3,
    View.ld_unit_zero (S := S384x384) hz2]

/-- At a batch's first tile the output block is the tile's attention over the keys and values just stored. -/
theorem out_first (c : Dev nD) (i : grid0.Coords) (arg2 : Memref sig .tc .vmem S1x2048x384 .f32) (harg2 : arg2.IsWhole) (arg3 : Memref sig .tc .vmem S384x384 .bf16) (harg3 : arg3.IsWhole) (arg4 : Memref sig .tc .vmem S384x384 .bf16) (harg4 : arg4.IsWhole) (arg5 : Memref sig .tc .vmem S384x384 .bf16) (harg5 : arg5.IsWhole) (arg6 : Memref sig .tc .vmem S1x512x384 .f32) (harg6 : arg6.IsWhole) (arg7 : Memref sig .tc .vmem S2048x384 .bf16) (harg7 : arg7.IsWhole) (arg8 : Memref sig .tc .vmem S2048x384 .bf16) (harg8 : arg8.IsWhole) (hc0 : cond0_0 i)
    (x0 : Vec F S1x2048x384 .f32) (x1 x2 x3 : Vec F S384x384 .bf16) :
    out0_A_4 c i arg2 harg2 arg3 harg3 arg4 harg4 arg5 harg5 arg6 harg6 arg7 harg7 arg8 harg8 hc0 x0 x1 x2 x3 = k0_pay4 (qrows i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_run_names
  rw [View.canon_unit_zero hz3, View.readCov_unit_zero (S := S2048x384) _ hz2,
    View.readCov_unit_zero (S := S2048x384) _ hz2]
  simp only [View.readAt_eq_ld, harg2.read_unread, harg3.read_unread, harg4.read_unread, harg5.read_unread,
    View.ld_unit_zero (S := S1x2048x384) hz3, View.ld_unit_zero (S := S384x384) hz2]

/-- At a later tile the output block is the tile's attention over the keys and values the scratch holds. -/
theorem out_later (c : Dev nD) (i : grid0.Coords) (arg2 : Memref sig .tc .vmem S1x2048x384 .f32) (harg2 : arg2.IsWhole) (arg3 : Memref sig .tc .vmem S384x384 .bf16) (harg3 : arg3.IsWhole) (arg4 : Memref sig .tc .vmem S384x384 .bf16) (harg4 : arg4.IsWhole) (arg5 : Memref sig .tc .vmem S384x384 .bf16) (harg5 : arg5.IsWhole) (arg6 : Memref sig .tc .vmem S1x512x384 .f32) (harg6 : arg6.IsWhole) (arg7 : Memref sig .tc .vmem S2048x384 .bf16) (harg7 : arg7.IsWhole) (arg8 : Memref sig .tc .vmem S2048x384 .bf16) (harg8 : arg8.IsWhole) (hc0 : ¬cond0_0 i)
    (x0 : Vec F S1x2048x384 .f32) (x1 x2 x3 : Vec F S384x384 .bf16) (xs0 xs1 : Vec F S2048x384 .bf16) :
    out0_B_4 c i arg2 harg2 arg3 harg3 arg4 harg4 arg5 harg5 arg6 harg6 arg7 harg7 arg8 harg8 hc0 x0 x1 x2 x3 xs0 xs1 = k0_pay4 (qrows i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_run_names
  rw [View.canon_unit_zero hz3]
  simp only [View.readAt_eq_ld, harg2.read_unread, harg3.read_unread, harg7.read_unread, harg8.read_unread,
    View.ld_unit_zero (S := S384x384) hz2, View.ld_unit_zero (S := S2048x384) hz2]

end Cert.Attn.Kernel

end
-- ==== Proof.Products.lean ====
/-
  The body's four matrix products, read at an output entry.

  Each is a product into a zero accumulator, so at an output entry it is the plain sum, over the one contracted
  coordinate, of the left operand's entry times the right operand's. Three of them contract the left operand's
  columns with the right operand's rows ([r, d] . [d, e]); the scores contract the columns of both ([r, d] . [k, d]).
  For each product the two operand entries that meet at contraction coordinate `k` are named first, one
  coordinate at a time: an output coordinate passes to the operand that keeps it, the contracted one is `k`.
-/
import proofs.«123860_j51771535786510_2_alg».proof.Proof.Gen.KernelIdeal
import Idealize.ShloMosaic.PureOps.Ideal.Laws
import Idealize.ShloMosaic.Lib.ValueIdx

noncomputable section

namespace Cert.Attn.Kernel

open Cert.KernelIdeal Cert.KernelIdeal.Gen
open Idealize.ShloMosaic Idealize.ShloMosaic.ValueIdx

variable {φ₁ φ₂ : FTy}

/-! ## A whole batch against a weight -/

theorem batch_lhs0 (i : S2048x384.Idx) (q : dot_S2048x384_S384x384_S2048x384_1_0_0_1_n_n.contr.Idx) :
    (dot_S2048x384_S384x384_S2048x384_1_0_0_1_n_n.lhsIdx i q 0).val = (i 0).val := by
  unfold DotDims.lhsIdx
  rw [dif_neg (show ¬(0 : Fin S2048x384.rank) ∈ dot_S2048x384_S384x384_S2048x384_1_0_0_1_n_n.lhsBatch by decide), dif_pos (show (0 : Fin S2048x384.rank) ∈ dot_S2048x384_S384x384_S2048x384_1_0_0_1_n_n.lhsNonContracting by decide)]
  rfl
theorem batch_rhs1 (i : S2048x384.Idx) (q : dot_S2048x384_S384x384_S2048x384_1_0_0_1_n_n.contr.Idx) :
    (dot_S2048x384_S384x384_S2048x384_1_0_0_1_n_n.rhsIdx i q 1).val = (i 1).val := by
  unfold DotDims.rhsIdx
  rw [dif_neg (show ¬(1 : Fin S384x384.rank) ∈ dot_S2048x384_S384x384_S2048x384_1_0_0_1_n_n.rhsBatch by decide), dif_pos (show (1 : Fin S384x384.rank) ∈ dot_S2048x384_S384x384_S2048x384_1_0_0_1_n_n.rhsNonContracting by decide)]
  rfl

/-- Entry (s, e) is the sum over d of a[s, d] * b[d, e]. -/
theorem batch_matmul_apply (a : FVec Ideal S2048x384 φ₁) (b : FVec Ideal S384x384 φ₂) (s : Fin 2048) (e : Fin 384) :
    matmul dot_S2048x384_S384x384_S2048x384_1_0_0_1_n_n none a b (constant (F := Ideal) S2048x384 .f32 0x00000000#32) (ix2 s e)
      = ∑ d : Fin 384, a (ix2 s d) * b (ix2 d e) := by
  refine (Ideal.matmul_constant_zero_apply dot_S2048x384_S384x384_S2048x384_1_0_0_1_n_n none a b (ix2 s e)).trans ?_
  rw [← Equiv.sum_comp (contrEquiv1 dot_S2048x384_S384x384_S2048x384_1_0_0_1_n_n 384 rfl rfl).symm]
  refine Finset.sum_congr rfl fun k _ => ?_
  have hk := contrEquiv1_symm_val dot_S2048x384_S384x384_S2048x384_1_0_0_1_n_n 384 rfl rfl k
  have el : dot_S2048x384_S384x384_S2048x384_1_0_0_1_n_n.lhsIdx (ix2 s e) ((contrEquiv1 dot_S2048x384_S384x384_S2048x384_1_0_0_1_n_n 384 rfl rfl).symm k) = ix2 s k :=
    funext fun ax => Fin.ext (by
      match ax with
      | ⟨0, _⟩ => exact batch_lhs0 _ _
      | ⟨1, _⟩ => exact (dot_S2048x384_S384x384_S2048x384_1_0_0_1_n_n.lhsIdx_val_of_single rfl _ _).trans hk)
  have er : dot_S2048x384_S384x384_S2048x384_1_0_0_1_n_n.rhsIdx (ix2 s e) ((contrEquiv1 dot_S2048x384_S384x384_S2048x384_1_0_0_1_n_n 384 rfl rfl).symm k) = ix2 k e :=
    funext fun ax => Fin.ext (by
      match ax with
      | ⟨0, _⟩ => exact (dot_S2048x384_S384x384_S2048x384_1_0_0_1_n_n.rhsIdx_val_of_single rfl _ _).trans hk
      | ⟨1, _⟩ => exact batch_rhs1 _ _)
  rw [el, er]

/-! ## A query tile against a weight -/

theorem tile_lhs0 (i : S512x384.Idx) (q : dot_S512x384_S384x384_S512x384_1_0_0_1_n_n.contr.Idx) :
    (dot_S512x384_S384x384_S512x384_1_0_0_1_n_n.lhsIdx i q 0).val = (i 0).val := by
  unfold DotDims.lhsIdx
  rw [dif_neg (show ¬(0 : Fin S512x384.rank) ∈ dot_S512x384_S384x384_S512x384_1_0_0_1_n_n.lhsBatch by decide), dif_pos (show (0 : Fin S512x384.rank) ∈ dot_S512x384_S384x384_S512x384_1_0_0_1_n_n.lhsNonContracting by decide)]
  rfl
theorem tile_rhs1 (i : S512x384.Idx) (q : dot_S512x384_S384x384_S512x384_1_0_0_1_n_n.contr.Idx) :
    (dot_S512x384_S384x384_S512x384_1_0_0_1_n_n.rhsIdx i q 1).val = (i 1).val := by
  unfold DotDims.rhsIdx
  rw [dif_neg (show ¬(1 : Fin S384x384.rank) ∈ dot_S512x384_S384x384_S512x384_1_0_0_1_n_n.rhsBatch by decide), dif_pos (show (1 : Fin S384x384.rank) ∈ dot_S512x384_S384x384_S512x384_1_0_0_1_n_n.rhsNonContracting by decide)]
  rfl

/-- Entry (r, e) is the sum over d of a[r, d] * b[d, e]. -/
theorem tile_matmul_apply (a : FVec Ideal S512x384 φ₁) (b : FVec Ideal S384x384 φ₂) (r : Fin 512) (e : Fin 384) :
    matmul dot_S512x384_S384x384_S512x384_1_0_0_1_n_n none a b (constant (F := Ideal) S512x384 .f32 0x00000000#32) (ix2 r e)
      = ∑ d : Fin 384, a (ix2 r d) * b (ix2 d e) := by
  refine (Ideal.matmul_constant_zero_apply dot_S512x384_S384x384_S512x384_1_0_0_1_n_n none a b (ix2 r e)).trans ?_
  rw [← Equiv.sum_comp (contrEquiv1 dot_S512x384_S384x384_S512x384_1_0_0_1_n_n 384 rfl rfl).symm]
  refine Finset.sum_congr rfl fun k _ => ?_
  have hk := contrEquiv1_symm_val dot_S512x384_S384x384_S512x384_1_0_0_1_n_n 384 rfl rfl k
  have el : dot_S512x384_S384x384_S512x384_1_0_0_1_n_n.lhsIdx (ix2 r e) ((contrEquiv1 dot_S512x384_S384x384_S512x384_1_0_0_1_n_n 384 rfl rfl).symm k) = ix2 r k :=
    funext fun ax => Fin.ext (by
      match ax with
      | ⟨0, _⟩ => exact tile_lhs0 _ _
      | ⟨1, _⟩ => exact (dot_S512x384_S384x384_S512x384_1_0_0_1_n_n.lhsIdx_val_of_single rfl _ _).trans hk)
  have er : dot_S512x384_S384x384_S512x384_1_0_0_1_n_n.rhsIdx (ix2 r e) ((contrEquiv1 dot_S512x384_S384x384_S512x384_1_0_0_1_n_n 384 rfl rfl).symm k) = ix2 k e :=
    funext fun ax => Fin.ext (by
      match ax with
      | ⟨0, _⟩ => exact (dot_S512x384_S384x384_S512x384_1_0_0_1_n_n.rhsIdx_val_of_single rfl _ _).trans hk
      | ⟨1, _⟩ => exact tile_rhs1 _ _)
  rw [el, er]

/-! ## The scores: queries against keys, along the feature axis of both -/

theorem score_lhs0 (i : S512x2048.Idx) (q : dot_S512x384_S2048x384_S512x2048_1_1_0_0_n_n.contr.Idx) :
    (dot_S512x384_S2048x384_S512x2048_1_1_0_0_n_n.lhsIdx i q 0).val = (i 0).val := by
  unfold DotDims.lhsIdx
  rw [dif_neg (show ¬(0 : Fin S512x384.rank) ∈ dot_S512x384_S2048x384_S512x2048_1_1_0_0_n_n.lhsBatch by decide), dif_pos (show (0 : Fin S512x384.rank) ∈ dot_S512x384_S2048x384_S512x2048_1_1_0_0_n_n.lhsNonContracting by decide)]
  rfl
theorem score_rhs0 (i : S512x2048.Idx) (q : dot_S512x384_S2048x384_S512x2048_1_1_0_0_n_n.contr.Idx) :
    (dot_S512x384_S2048x384_S512x2048_1_1_0_0_n_n.rhsIdx i q 0).val = (i 1).val := by
  unfold DotDims.rhsIdx
  rw [dif_neg (show ¬(0 : Fin S2048x384.rank) ∈ dot_S512x384_S2048x384_S512x2048_1_1_0_0_n_n.rhsBatch by decide), dif_pos (show (0 : Fin S2048x384.rank) ∈ dot_S512x384_S2048x384_S512x2048_1_1_0_0_n_n.rhsNonContracting by decide)]
  rfl

/-- Entry (r, k) is the sum over e of a[r, e] * b[k, e]. -/
theorem score_matmul_apply (a : FVec Ideal S512x384 φ₁) (b : FVec Ideal S2048x384 φ₂) (r : Fin 512) (k : Fin 2048) :
    matmul dot_S512x384_S2048x384_S512x2048_1_1_0_0_n_n none a b (constant (F := Ideal) S512x2048 .f32 0x00000000#32) (ix2 r k)
      = ∑ e : Fin 384, a (ix2 r e) * b (ix2 k e) := by
  refine (Ideal.matmul_constant_zero_apply dot_S512x384_S2048x384_S512x2048_1_1_0_0_n_n none a b (ix2 r k)).trans ?_
  rw [← Equiv.sum_comp (contrEquiv1 dot_S512x384_S2048x384_S512x2048_1_1_0_0_n_n 384 rfl rfl).symm]
  refine Finset.sum_congr rfl fun e _ => ?_
  have hk := contrEquiv1_symm_val dot_S512x384_S2048x384_S512x2048_1_1_0_0_n_n 384 rfl rfl e
  have el : dot_S512x384_S2048x384_S512x2048_1_1_0_0_n_n.lhsIdx (ix2 r k) ((contrEquiv1 dot_S512x384_S2048x384_S512x2048_1_1_0_0_n_n 384 rfl rfl).symm e) = ix2 r e :=
    funext fun ax => Fin.ext (by
      match ax with
      | ⟨0, _⟩ => exact score_lhs0 _ _
      | ⟨1, _⟩ => exact (dot_S512x384_S2048x384_S512x2048_1_1_0_0_n_n.lhsIdx_val_of_single rfl _ _).trans hk)
  have er : dot_S512x384_S2048x384_S512x2048_1_1_0_0_n_n.rhsIdx (ix2 r k) ((contrEquiv1 dot_S512x384_S2048x384_S512x2048_1_1_0_0_n_n 384 rfl rfl).symm e) = ix2 k e :=
    funext fun ax => Fin.ext (by
      match ax with
      | ⟨0, _⟩ => exact score_rhs0 _ _
      | ⟨1, _⟩ => exact (dot_S512x384_S2048x384_S512x2048_1_1_0_0_n_n.rhsIdx_val_of_single rfl _ _).trans hk)
  rw [el, er]

/-! ## The weighted sum of the values -/

theorem value_lhs0 (i : S512x384.Idx) (q : dot_S512x2048_S2048x384_S512x384_1_0_0_1_n_n.contr.Idx) :
    (dot_S512x2048_S2048x384_S512x384_1_0_0_1_n_n.lhsIdx i q 0).val = (i 0).val := by
  unfold DotDims.lhsIdx
  rw [dif_neg (show ¬(0 : Fin S512x2048.rank) ∈ dot_S512x2048_S2048x384_S512x384_1_0_0_1_n_n.lhsBatch by decide), dif_pos (show (0 : Fin S512x2048.rank) ∈ dot_S512x2048_S2048x384_S512x384_1_0_0_1_n_n.lhsNonContracting by decide)]
  rfl
theorem value_rhs1 (i : S512x384.Idx) (q : dot_S512x2048_S2048x384_S512x384_1_0_0_1_n_n.contr.Idx) :
    (dot_S512x2048_S2048x384_S512x384_1_0_0_1_n_n.rhsIdx i q 1).val = (i 1).val := by
  unfold DotDims.rhsIdx
  rw [dif_neg (show ¬(1 : Fin S2048x384.rank) ∈ dot_S512x2048_S2048x384_S512x384_1_0_0_1_n_n.rhsBatch by decide), dif_pos (show (1 : Fin S2048x384.rank) ∈ dot_S512x2048_S2048x384_S512x384_1_0_0_1_n_n.rhsNonContracting by decide)]
  rfl

/-- Entry (r, e) is the sum over k of a[r, k] * b[k, e]. -/
theorem value_matmul_apply (a : FVec Ideal S512x2048 φ₁) (b : FVec Ideal S2048x384 φ₂) (r : Fin 512) (e : Fin 384) :
    matmul dot_S512x2048_S2048x384_S512x384_1_0_0_1_n_n none a b (constant (F := Ideal) S512x384 .f32 0x00000000#32) (ix2 r e)
      = ∑ k : Fin 2048, a (ix2 r k) * b (ix2 k e) := by
  refine (Ideal.matmul_constant_zero_apply dot_S512x2048_S2048x384_S512x384_1_0_0_1_n_n none a b (ix2 r e)).trans ?_
  rw [← Equiv.sum_comp (contrEquiv1 dot_S512x2048_S2048x384_S512x384_1_0_0_1_n_n 2048 rfl rfl).symm]
  refine Finset.sum_congr rfl fun k _ => ?_
  have hk := contrEquiv1_symm_val dot_S512x2048_S2048x384_S512x384_1_0_0_1_n_n 2048 rfl rfl k
  have el : dot_S512x2048_S2048x384_S512x384_1_0_0_1_n_n.lhsIdx (ix2 r e) ((contrEquiv1 dot_S512x2048_S2048x384_S512x384_1_0_0_1_n_n 2048 rfl rfl).symm k) = ix2 r k :=
    funext fun ax => Fin.ext (by
      match ax with
      | ⟨0, _⟩ => exact value_lhs0 _ _
      | ⟨1, _⟩ => exact (dot_S512x2048_S2048x384_S512x384_1_0_0_1_n_n.lhsIdx_val_of_single rfl _ _).trans hk)
  have er : dot_S512x2048_S2048x384_S512x384_1_0_0_1_n_n.rhsIdx (ix2 r e) ((contrEquiv1 dot_S512x2048_S2048x384_S512x384_1_0_0_1_n_n 2048 rfl rfl).symm k) = ix2 k e :=
    funext fun ax => Fin.ext (by
      match ax with
      | ⟨0, _⟩ => exact (dot_S512x2048_S2048x384_S512x384_1_0_0_1_n_n.rhsIdx_val_of_single rfl _ _).trans hk
      | ⟨1, _⟩ => exact value_rhs1 _ _)
  rw [el, er]

end Cert.Attn.Kernel

end
-- ==== Proof.Attention.lean ====
/-
  Single-head attention without the 1/sqrt(d) scale, index by index on the extended reals.

  From an input `x` of shape [8, 2048, 384] and three weight matrices of shape [384, 384] (stored [out, in]):
  the projections `proj x w b s e = sum over d of x[b, s, d] * w[e, d]`; the scores
  `score b q k = sum over e of Q[b, q, e] * K[b, k, e]`; the row maximum over `k`, folded from the word that
  denotes minus infinity; the unnormalised weights `exp (score - rowMax)`; their row sum; and the result
  `attn[b, q, e] = sum over k of (weight[b, q, k] / rowSum[b, q]) * V[b, k, e]`.
  Nothing here needs the entries to be finite: the two programs compute these same sums, maxima, differences,
  exponentials and quotients, and only the grouping of a maximum with its own starting value differs.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The input's and the result's index type: (batch, position, feature). -/
abbrev XIdx : Type := (⟨3, ![8, 2048, 384]⟩ : Shape).Idx
/-- A weight matrix's index type: (out feature, in feature). -/
abbrev WIdx : Type := (⟨2, ![384, 384]⟩ : Shape).Idx

/-- The word both programs start a row maximum from: the f32 pattern of minus infinity. -/
def ninf : EReal := Ideal.ofBits .f32 0xFF800000#32

/-- A linear projection: position `s` of batch `b` against row `e` of the weight. -/
def proj (x : XIdx → EReal) (w : WIdx → EReal) (b : Fin 8) (s : Fin 2048) (e : Fin 384) : EReal :=
  ∑ d : Fin 384, x (ix3 b s d) * w (ix2 e d)

/-- The score of query position `q` against key position `k`. -/
def score (x : XIdx → EReal) (wq wk : WIdx → EReal) (b : Fin 8) (q k : Fin 2048) : EReal :=
  ∑ e : Fin 384, proj x wq b q e * proj x wk b k e

/-- The largest score of a query row, folded from minus infinity. -/
def rowMax (x : XIdx → EReal) (wq wk : WIdx → EReal) (b : Fin 8) (q : Fin 2048) : EReal :=
  (Finset.univ : Finset (Fin 2048)).fold max ninf (fun k => score x wq wk b q k)

/-- The unnormalised softmax weight. -/
def weight (x : XIdx → EReal) (wq wk : WIdx → EReal) (b : Fin 8) (q k : Fin 2048) : EReal :=
  Ideal.exp (score x wq wk b q k - rowMax x wq wk b q)

/-- The softmax denominator of a query row. -/
def rowSum (x : XIdx → EReal) (wq wk : WIdx → EReal) (b : Fin 8) (q : Fin 2048) : EReal :=
  ∑ k : Fin 2048, weight x wq wk b q k

/-- The attention output at (batch, query position, feature). -/
def attn (x : XIdx → EReal) (wq wk wv : WIdx → EReal) : XIdx → EReal := fun i =>
  ∑ k : Fin 2048, Ideal.div (weight x wq wk (i 0) (i 1) k) (rowSum x wq wk (i 0) (i 1)) * proj x wv (i 0) k (i 2)

/-- Taking the maximum of a fold's starting value with the fold changes nothing: the fold is already above it. -/
theorem max_start_fold {ι : Type} (s : Finset ι) (a : EReal) (f : ι → EReal) :
    max a (s.fold max a f) = s.fold max a f :=
  max_eq_right ((Finset.le_fold_max a).mpr (Or.inl le_rfl))

end Cert.Attn

end
-- ==== Proof.Tile.lean ====
/-
  One query tile of the attention, as a function of what a grid point holds.

  A grid point (batch `b`, tile `i`) holds a tile `xt` of 512 query rows, the transposed query weight `wqT`
  ([in, out]), and the batch's keys `K` and values `V` (each [2048, 384]). From these it forms the tile's queries,
  their scores against every key, each row's maximum, weights, denominator, and the weighted sum of the values.
  When the tile's rows are rows `512 i + r` of batch `b` of the input, the transposed weight is the weight read
  the other way round, and `K`, `V` are that batch's projections, every one of these is the corresponding
  quantity of `Attention.lean` at row `512 i + r`: the same sums of the same terms.
  A batch's keys and values are themselves the batch's rows against a transposed weight (`batchProj`).
-/
import proofs.«123860_j51771535786510_2_alg».proof.Proof.Attention

noncomputable section

namespace Cert.Attn

open Idealize.ShloMosaic Idealize.ShloMosaic.ValueIdx

/-- A query tile's index type: (unit, row in the tile, feature). -/
abbrev TIdx : Type := (⟨3, ![1, 512, 384]⟩ : Shape).Idx
/-- One batch of the input: (unit, position, feature). -/
abbrev BIdx : Type := (⟨3, ![1, 2048, 384]⟩ : Shape).Idx
/-- A batch's keys or values: (position, feature). -/
abbrev KIdx : Type := (⟨2, ![2048, 384]⟩ : Shape).Idx

/-- A batch's rows against a transposed weight ([in, out]): its keys, or its values. -/
def batchProj (xb : BIdx → EReal) (wT : WIdx → EReal) (s : Fin 2048) (e : Fin 384) : EReal :=
  ∑ d : Fin 384, xb (ix3 (0 : Fin 1) s d) * wT (ix2 d e)

/-- The tile's queries. -/
def tileQ (xt : TIdx → EReal) (wqT : WIdx → EReal) (r : Fin 512) (e : Fin 384) : EReal :=
  ∑ d : Fin 384, xt (ix3 (0 : Fin 1) r d) * wqT (ix2 d e)

/-- The tile's scores against every key. -/
def tileScore (xt : TIdx → EReal) (wqT : WIdx → EReal) (K : KIdx → EReal) (r : Fin 512) (k : Fin 2048) : EReal :=
  ∑ e : Fin 384, tileQ xt wqT r e * K (ix2 k e)

/-- A tile row's largest score, folded from minus infinity. -/
def tileMax (xt : TIdx → EReal) (wqT : WIdx → EReal) (K : KIdx → EReal) (r : Fin 512) : EReal :=
  (Finset.univ : Finset (Fin 2048)).fold max ninf (fun k => tileScore xt wqT K r k)

/-- A tile row's unnormalised weights. -/
def tileWeight (xt : TIdx → EReal) (wqT : WIdx → EReal) (K : KIdx → EReal) (r : Fin 512) (k : Fin 2048) : EReal :=
  Ideal.exp (tileScore xt wqT K r k - tileMax xt wqT K r)

/-- A tile row's denominator. -/
def tileSum (xt : TIdx → EReal) (wqT : WIdx → EReal) (K : KIdx → EReal) (r : Fin 512) : EReal :=
  ∑ k : Fin 2048, tileWeight xt wqT K r k

/-- The tile's output rows. -/
def tileOut (xt : TIdx → EReal) (wqT : WIdx → EReal) (K V : KIdx → EReal) (r : Fin 512) (e : Fin 384) : EReal :=
  ∑ k : Fin 2048, Ideal.div (tileWeight xt wqT K r k) (tileSum xt wqT K r) * V (ix2 k e)

/-- The attention read at coordinates. -/
theorem attn_ix3 (x : XIdx → EReal) (wq wk wv : WIdx → EReal) (b : Fin 8) (q : Fin 2048) (e : Fin 384) :
    attn x wq wk wv (ix3 b q e)
      = ∑ k : Fin 2048, Ideal.div (weight x wq wk b q k) (rowSum x wq wk b q) * proj x wv b k e := rfl

/-- A batch's projection against the transposed weight is the projection of `Attention.lean`, when the batch is
    batch `b` of the input and the transposed weight is the weight read the other way round. -/
theorem batchProj_eq (x : XIdx → EReal) (w : WIdx → EReal) (b : Fin 8) (xb : BIdx → EReal) (wT : WIdx → EReal)
    (hx : ∀ (s : Fin 2048) (d : Fin 384), xb (ix3 (0 : Fin 1) s d) = x (ix3 b s d))
    (hw : ∀ d e : Fin 384, wT (ix2 d e) = w (ix2 e d)) (s : Fin 2048) (e : Fin 384) :
    batchProj xb wT s e = proj x w b s e := by
  unfold batchProj proj
  exact Finset.sum_congr rfl fun d _ => by rw [hx, hw]

/-- THE TILE IS THE ATTENTION AT ITS ROWS. -/
theorem tileOut_eq_attn (x : XIdx → EReal) (wq wk wv : WIdx → EReal) (b : Fin 8) (row : Fin 512 → Fin 2048)
    (xt : TIdx → EReal) (wqT : WIdx → EReal) (K V : KIdx → EReal)
    (hx : ∀ (r : Fin 512) (d : Fin 384), xt (ix3 (0 : Fin 1) r d) = x (ix3 b (row r) d))
    (hq : ∀ d e : Fin 384, wqT (ix2 d e) = wq (ix2 e d))
    (hK : ∀ (k : Fin 2048) (e : Fin 384), K (ix2 k e) = proj x wk b k e)
    (hV : ∀ (k : Fin 2048) (e : Fin 384), V (ix2 k e) = proj x wv b k e) (r : Fin 512) (e : Fin 384) :
    tileOut xt wqT K V r e = attn x wq wk wv (ix3 b (row r) e) := by
  have hQ : ∀ r e, tileQ xt wqT r e = proj x wq b (row r) e := fun r e => by
    unfold tileQ proj
    exact Finset.sum_congr rfl fun d _ => by rw [hx, hq]
  have hS : ∀ r k, tileScore xt wqT K r k = score x wq wk b (row r) k := fun r k => by
    unfold tileScore score
    exact Finset.sum_congr rfl fun e _ => by rw [hQ, hK]
  have hM : ∀ r, tileMax xt wqT K r = rowMax x wq wk b (row r) := fun r => by
    unfold tileMax rowMax
    exact congrArg (fun f => (Finset.univ : Finset (Fin 2048)).fold max ninf f) (funext fun k => hS r k)
  have hW : ∀ r k, tileWeight xt wqT K r k = weight x wq wk b (row r) k := fun r k => by
    unfold tileWeight weight
    rw [hS, hM]
  have hL : ∀ r, tileSum xt wqT K r = rowSum x wq wk b (row r) := fun r => by
    unfold tileSum rowSum
    exact Finset.sum_congr rfl fun k _ => hW r k
  rw [attn_ix3]; unfold tileOut
  exact Finset.sum_congr rfl fun k _ => by rw [hW, hL, hV]

end Cert.Attn

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.Stages.lean ====
/-
  The body's stored expressions, read at an entry.

  The two scratch stores are a batch's rows against a weight (`batchProj`). The output store is cut into stages,
  each a small expression of the one before: the tile's queries; their scores against the keys; each row's maximum
  spread back along the row; the weights `exp (score - max)`; each row's sum spread back along the row; the
  normalised weights; their product with the values. The stored expression is the composition of the stages as
  written, and each stage read at an entry is the corresponding quantity of `Tile.lean`.
-/
import proofs.«123860_j51771535786510_2_alg».proof.Proof.Gen.KernelIdeal.Skeleton
import proofs.«123860_j51771535786510_2_alg».proof.Proof.Products
import proofs.«123860_j51771535786510_2_alg».proof.Proof.Tile
import proofs.«123860_j51771535786510_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.Attn.Kernel

open Cert.KernelIdeal Cert.KernelIdeal.Gen
open Idealize.ShloMosaic Idealize.ShloMosaic.ValueIdx Cert.Attn Cert.LibKeepdims

/-! ## The scratch stores: a batch against a weight -/

/-- The key store at (s, e): the batch's row `s` against column `e` of the transposed weight. -/
theorem keys_apply (x0 : Vec Ideal S1x2048x384 .f32) (w : Vec Ideal S384x384 .bf16) (s : Fin 2048) (e : Fin 384) :
    k0_pay2 x0 w (ix2 s e) = batchProj x0 w s e := by
  unfold k0_pay2 k0_pay1 batchProj
  dsimp only
  rw [shapeCast_self]
  refine (batch_matmul_apply _ _ s e).trans ?_
  refine Finset.sum_congr rfl fun d _ => ?_
  rw [shapeCast_self]
  exact congrArg (· * w (ix2 d e)) (shapeCast_1ab_ab_apply x0 shapeCasts_S1x2048x384_S2048x384 s d)

/-- The value store at (s, e): the same expression of the value weight. -/
theorem vals_apply (x0 : Vec Ideal S1x2048x384 .f32) (w : Vec Ideal S384x384 .bf16) (s : Fin 2048) (e : Fin 384) :
    k0_pay3 x0 w (ix2 s e) = batchProj x0 w s e := by
  unfold k0_pay3 k0_pay1 batchProj
  dsimp only
  rw [shapeCast_self]
  refine (batch_matmul_apply _ _ s e).trans ?_
  refine Finset.sum_congr rfl fun d _ => ?_
  rw [shapeCast_self]
  exact congrArg (· * w (ix2 d e)) (shapeCast_1ab_ab_apply x0 shapeCasts_S1x2048x384_S2048x384 s d)

/-! ## The output store, stage by stage -/

/-- The tile's queries. -/
def stQ (v6 : Vec Ideal S1x512x384 .f32) (v9 : FVec Ideal S384x384 .bf16) : FVec Ideal S512x384 .bf16 :=
  truncf .bf16 (matmul dot_S512x384_S384x384_S512x384_1_0_0_1_n_n none
    (truncf .bf16 (shapeCast S512x384 v6 shapeCasts_S1x512x384_S512x384) bitsLt_bf16_f32)
    (shapeCast S384x384 v9 shapeCasts_S384x384_S384x384) (constant (F := Ideal) S512x384 .f32 0x00000000#32)) bitsLt_bf16_f32

/-- The scores. -/
def stS (q : FVec Ideal S512x384 .bf16) (K : FVec Ideal S2048x384 .bf16) : FVec Ideal S512x2048 .f32 :=
  matmul dot_S512x384_S2048x384_S512x2048_1_1_0_0_n_n none q K (constant (F := Ideal) S512x2048 .f32 0x00000000#32)

/-- Each row's maximum, spread along the row. -/
def stM (s : FVec Ideal S512x2048 .f32) : FVec Ideal S512x2048 .f32 :=
  broadcastTo S512x2048 (shapeCast S512x1
    (multiReduction (F := Ideal) .maximumf [1] S512 s 0xFF800000#32 reduces_S512x2048_S512 (.inl rfl) rfl)
    shapeCasts_S512_S512x1) broadcasts_S512x1_S512x2048

/-- The weights. -/
def stW (s : FVec Ideal S512x2048 .f32) : FVec Ideal S512x2048 .f32 := exp (subf s (stM s))

/-- Each row's sum of weights, spread along the row. -/
def stL (w : FVec Ideal S512x2048 .f32) : FVec Ideal S512x2048 .f32 :=
  broadcastTo S512x2048 (shapeCast S512x1
    (multiReduction (F := Ideal) .add [1] S512 w 0x00000000#32 reduces_S512x2048_S512 (.inl rfl) rfl)
    shapeCasts_S512_S512x1) broadcasts_S512x1_S512x2048

/-- The normalised weights. -/
def stP (w : FVec Ideal S512x2048 .f32) : FVec Ideal S512x2048 .bf16 := truncf .bf16 (divf w (stL w)) bitsLt_bf16_f32

/-- The weighted sum of the values, as the stored block. -/
def stO (p : FVec Ideal S512x2048 .bf16) (V : FVec Ideal S2048x384 .bf16) : FVec Ideal S1x512x384 .f32 :=
  shapeCast S1x512x384 (matmul dot_S512x2048_S2048x384_S512x384_1_0_0_1_n_n none p V
    (constant (F := Ideal) S512x384 .f32 0x00000000#32)) shapeCasts_S512x384_S1x512x384

/-- The stored expression is the stages composed. -/
theorem pay4_stages (v6 : Vec Ideal S1x512x384 .f32) (v9 : Vec Ideal S384x384 .bf16) (v13 v14 : Vec Ideal S2048x384 .bf16) :
    k0_pay4 v6 v9 v13 v14 = stO (stP (stW (stS (stQ v6 v9) v13))) v14 := rfl

theorem stQ_apply (v6 : Vec Ideal S1x512x384 .f32) (v9 : FVec Ideal S384x384 .bf16) (r : Fin 512) (e : Fin 384) :
    stQ v6 v9 (ix2 r e) = tileQ v6 v9 r e := by
  unfold stQ tileQ
  refine (tile_matmul_apply _ _ r e).trans ?_
  refine Finset.sum_congr rfl fun d _ => ?_
  rw [shapeCast_self]
  exact congrArg (· * v9 (ix2 d e)) (shapeCast_1ab_ab_apply v6 shapeCasts_S1x512x384_S512x384 r d)

theorem stS_apply (q : FVec Ideal S512x384 .bf16) (K : FVec Ideal S2048x384 .bf16) (r : Fin 512) (k : Fin 2048) :
    stS q K (ix2 r k) = ∑ e : Fin 384, q (ix2 r e) * K (ix2 k e) :=
  score_matmul_apply q K r k

/-- Row `r` with column `k` inserted is (r, k). -/
theorem lift_row (r : Fin 512) (k : Fin 2048) : reduces_S512x2048_S512.lift (ix1 r) k = ix2 r k :=
  funext fun a => Fin.ext (by match a with | ⟨0, _⟩ => rfl | ⟨1, _⟩ => rfl)

theorem stM_apply (s : FVec Ideal S512x2048 .f32) (r : Fin 512) (k : Fin 2048) :
    stM s (ix2 r k) = (Finset.univ : Finset (Fin 2048)).fold max ninf (fun k' => s (ix2 r k')) := by
  unfold stM
  refine (broadcastTo_a1_ab_apply _ broadcasts_S512x1_S512x2048 r k).trans ?_
  refine (shapeCast_a_a1_apply _ shapeCasts_S512_S512x1 r (0 : Fin 1)).trans ?_
  refine (Ideal.multiReduction_maximumf_single s 0xFF800000#32 reduces_S512x2048_S512 (.inl rfl) rfl (ix1 r)).trans ?_
  exact congrArg (fun f => (Finset.univ : Finset (Fin 2048)).fold max ninf f)
    (funext fun k' => congrArg s (lift_row r k'))

theorem stW_apply (s : FVec Ideal S512x2048 .f32) (r : Fin 512) (k : Fin 2048) :
    stW s (ix2 r k)
      = Ideal.exp (s (ix2 r k) - (Finset.univ : Finset (Fin 2048)).fold max ninf (fun k' => s (ix2 r k'))) := by
  show Ideal.exp (s (ix2 r k) - stM s (ix2 r k)) = _
  rw [stM_apply]

theorem stL_apply (w : FVec Ideal S512x2048 .f32) (r : Fin 512) (k : Fin 2048) :
    stL w (ix2 r k) = ∑ k' : Fin 2048, w (ix2 r k') := by
  unfold stL
  refine (broadcastTo_a1_ab_apply _ broadcasts_S512x1_S512x2048 r k).trans ?_
  refine (shapeCast_a_a1_apply _ shapeCasts_S512_S512x1 r (0 : Fin 1)).trans ?_
  refine (Ideal.multiReduction_add_single w 0x00000000#32 reduces_S512x2048_S512 (.inl rfl) rfl (ix1 r)).trans ?_
  exact Finset.sum_congr rfl fun k' _ => congrArg w (lift_row r k')

theorem stP_apply (w : FVec Ideal S512x2048 .f32) (r : Fin 512) (k : Fin 2048) :
    stP w (ix2 r k) = Ideal.div (w (ix2 r k)) (∑ k' : Fin 2048, w (ix2 r k')) := by
  show Ideal.div (w (ix2 r k)) (stL w (ix2 r k)) = _
  rw [stL_apply]

theorem stO_apply (p : FVec Ideal S512x2048 .bf16) (V : FVec Ideal S2048x384 .bf16) (u : Fin 1) (r : Fin 512) (e : Fin 384) :
    stO p V (ix3 u r e) = ∑ k : Fin 2048, p (ix2 r k) * V (ix2 k e) := by
  unfold stO
  refine (shapeCast_ab_1ab_apply _ shapeCasts_S512x384_S1x512x384 u r e).trans ?_
  exact value_matmul_apply p V r e

/-- THE OUTPUT STORE at (u, r, e): the tile's output row `r`, feature `e`. -/
theorem out_apply (v6 : Vec Ideal S1x512x384 .f32) (v9 : Vec Ideal S384x384 .bf16) (v13 v14 : Vec Ideal S2048x384 .bf16)
    (u : Fin 1) (r : Fin 512) (e : Fin 384) :
    k0_pay4 v6 v9 v13 v14 (ix3 u r e) = tileOut v6 v9 v13 v14 r e := by
  have hS : ∀ (r : Fin 512) (k : Fin 2048), stS (stQ v6 v9) v13 (ix2 r k) = tileScore v6 v9 v13 r k := fun r k =>
    (stS_apply _ _ r k).trans (Finset.sum_congr rfl fun e _ => by rw [stQ_apply])
  have hW : ∀ (r : Fin 512) (k : Fin 2048), stW (stS (stQ v6 v9) v13) (ix2 r k) = tileWeight v6 v9 v13 r k := fun r k => by
    rw [stW_apply]; unfold tileWeight tileMax
    simp only [hS]
  rw [pay4_stages, stO_apply]; unfold tileOut tileSum
  refine Finset.sum_congr rfl fun k _ => ?_
  rw [stP_apply]
  simp only [hW]

end Cert.Attn.Kernel

end
-- ==== Proof.Blocks.lean ====
/-
  From what each grid point writes back to the whole result array.

  The grid is 8 batches by 4 query tiles, run batch by batch. The input window hands every point of batch `b` the
  whole batch; the three weight windows hand every point the transposed weights, which the program forms before the
  region (a change of float format, the identity here, then a transpose). The first tile of a batch fills the two
  scratch buffers with the batch's keys and values, and the later tiles find them there: by induction on the point,
  after point `n` the scratch holds the keys and values of batch `n / 4`. So every point writes back the attention
  at its own 512 rows, the 32 blocks tile the result array, and the array ends holding the attention.
-/
import proofs.«123860_j51771535786510_2_alg».proof.Proof.Gen.KernelIdeal.Value
import proofs.«123860_j51771535786510_2_alg».proof.Proof.Pieces
import proofs.«123860_j51771535786510_2_alg».proof.Proof.Stages
import proofs.«123860_j51771535786510_2_alg».proof.Proof.Tile
import Idealize.ShloMosaic.Lib.Pipeline.Value
import Idealize.ShloMosaic.Lib.StableHlo.Run
import Idealize.ShloMosaic.Lib.ValueLayout

noncomputable section

namespace Cert.Attn.Kernel

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

/-- The input and the three weights, as launched. -/
abbrev argX (c : Dev nD) : XIdx → EReal := m ((c : Thread nD τ).loc main_arg0)
abbrev argWq (c : Dev nD) : WIdx → EReal := m ((c : Thread nD τ).loc main_arg1)
abbrev argWk (c : Dev nD) : WIdx → EReal := m ((c : Thread nD τ).loc main_arg2)
abbrev argWv (c : Dev nD) : WIdx → EReal := m ((c : Thread nD τ).loc main_arg3)

theorem hN : cfg0.N = 32 := N_0

/-- The batch a point belongs to. -/
def bat (n : ℕ) (h : n < cfg0.N) : Fin 8 := ⟨n / 4, by have := hN; omega⟩

/-- The row of the batch that row `r` of a point's tile is. -/
def qrow (n : ℕ) (r : Fin 512) : Fin 2048 := ⟨512 * (n % 4) + r.val, by have := r.isLt; omega⟩

/-- The printed index maps and the body's row offset, decided over the 32 points: the input and the output move with
    the batch, the output also with the tile, the weights never; the body reads its tile from row 512 (n mod 4) on. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-! ## What the windows hand a point -/

/-- The input window's block at a point is the point's batch. -/
theorem x_block (c : Dev nD) (t : Fin cfg0.N) (u : Fin 1) (s : Fin 2048) (d : Fin 384) :
    (iblk m c 0 t : Vec Ideal S1x2048x384 .f32) (ix3 u s d) = argX m c (ix3 (bat t.val t.isLt) s d) := by
  obtain ⟨e0, e1, e2, -⟩ := idx_facts t
  unfold iblk
  rw [View.read_apply]
  show V m c main_arg0 (((cfg0.win 0).blk t).view.emb (ix3 u s d)) = _
  rw [V_main_arg0]
  refine congrArg (m ((c : Thread nD τ).loc main_arg0)) (funext fun a => Fin.ext ?_)
  match a with
  | ⟨0, _⟩ => show win0_0.index t (0 : Fin 3) * 1 + 1 * u.val = t.val / 4; have := u.isLt; omega
  | ⟨1, _⟩ => show win0_0.index t (1 : Fin 3) * 2048 + 1 * s.val = s.val; omega
  | ⟨2, _⟩ => show win0_0.index t (2 : Fin 3) * 384 + 1 * d.val = d.val; omega

/-- The query weight's window holds the weight transposed. -/
theorem wq_block (c : Dev nD) (t : Fin cfg0.N) (d e : Fin 384) :
    (iblk m c 1 t : Vec Ideal S384x384 .bf16) (ix2 d e) = argWq m c (ix2 e d) := by
  obtain ⟨-, -, -, e0, e1, -⟩ := idx_facts t
  have hV : V m c main_v1
      = transpose S384x384 [1, 0] (truncf (F := Ideal) .bf16 (m ((c : Thread nD τ).loc main_arg1) : FVec Ideal S384x384 .f32) bitsLt_bf16_f32) transposes_S384x384_S384x384_1_0 := by
    dsimp only [Gen.V, Gen.hostOps0]; after_results
  unfold iblk
  rw [View.read_apply]
  show V m c main_v1 (((cfg0.win 1).blk t).view.emb (ix2 d e)) = _
  have hemb : ((cfg0.win 1).blk t).view.emb (ix2 d e) = ix2 d e := funext fun a => Fin.ext (by
    match a with
    | ⟨0, _⟩ => show win0_1.index t (0 : Fin 2) * 384 + 1 * d.val = d.val; omega
    | ⟨1, _⟩ => show win0_1.index t (1 : Fin 2) * 384 + 1 * e.val = e.val; omega)
  rw [hemb, hV]
  exact transpose_ix2_apply _ transposes_S384x384_S384x384_1_0 d e

/-- The key weight's window holds the weight transposed. -/
theorem wk_block (c : Dev nD) (t : Fin cfg0.N) (d e : Fin 384) :
    (iblk m c 2 t : Vec Ideal S384x384 .bf16) (ix2 d e) = argWk m c (ix2 e d) := by
  obtain ⟨-, -, -, -, -, e0, e1, -⟩ := idx_facts t
  have hV : V m c main_v3
      = transpose S384x384 [1, 0] (truncf (F := Ideal) .bf16 (m ((c : Thread nD τ).loc main_arg2) : FVec Ideal S384x384 .f32) bitsLt_bf16_f32) transposes_S384x384_S384x384_1_0 := by
    dsimp only [Gen.V, Gen.hostOps0]; after_results
  unfold iblk
  rw [View.read_apply]
  show V m c main_v3 (((cfg0.win 2).blk t).view.emb (ix2 d e)) = _
  have hemb : ((cfg0.win 2).blk t).view.emb (ix2 d e) = ix2 d e := funext fun a => Fin.ext (by
    match a with
    | ⟨0, _⟩ => show win0_2.index t (0 : Fin 2) * 384 + 1 * d.val = d.val; omega
    | ⟨1, _⟩ => show win0_2.index t (1 : Fin 2) * 384 + 1 * e.val = e.val; omega)
  rw [hemb, hV]
  exact transpose_ix2_apply _ transposes_S384x384_S384x384_1_0 d e

/-- The value weight's window holds the weight transposed. -/
theorem wv_block (c : Dev nD) (t : Fin cfg0.N) (d e : Fin 384) :
    (iblk m c 3 t : Vec Ideal S384x384 .bf16) (ix2 d e) = argWv m c (ix2 e d) := by
  obtain ⟨-, -, -, -, -, -, -, e0, e1, -⟩ := idx_facts t
  have hV : V m c main_v5
      = transpose S384x384 [1, 0] (truncf (F := Ideal) .bf16 (m ((c : Thread nD τ).loc main_arg3) : FVec Ideal S384x384 .f32) bitsLt_bf16_f32) transposes_S384x384_S384x384_1_0 := by
    dsimp only [Gen.V, Gen.hostOps0]; after_results
  unfold iblk
  rw [View.read_apply]
  show V m c main_v5 (((cfg0.win 3).blk t).view.emb (ix2 d e)) = _
  have hemb : ((cfg0.win 3).blk t).view.emb (ix2 d e) = ix2 d e := funext fun a => Fin.ext (by
    match a with
    | ⟨0, _⟩ => show win0_3.index t (0 : Fin 2) * 384 + 1 * d.val = d.val; omega
    | ⟨1, _⟩ => show win0_3.index t (1 : Fin 2) * 384 + 1 * e.val = e.val; omega)
  rw [hemb, hV]
  exact transpose_ix2_apply _ transposes_S384x384_S384x384_1_0 d e

/-- The rows a point's queries come from: row `r` of the tile is row 512 (n mod 4) + r of the batch. -/
theorem qrows_apply (t : Fin cfg0.N) (x0 : Vec Ideal S1x2048x384 .f32) (u : Fin 1) (r : Fin 512) (d : Fin 384) :
    qrows (grid0.coords t) x0 (ix3 u r d) = x0 (ix3 (0 : Fin 1) (qrow t.val r) d) := by
  obtain ⟨-, -, -, -, -, -, -, -, -, -, -, -, o0, o1, o2⟩ := idx_facts t
  show x0 ((Rect.unit (s := S1x2048x384) (k0_off1 (grid0.coords t)) S1x512x384.size (k0_off1_inb (grid0.coords t))).idx (ix3 u r d)) = _
  refine congrArg x0 (funext fun a => Fin.ext ?_)
  match a with
  | ⟨0, _⟩ => show k0_off1 (grid0.coords t) (0 : Fin 3) + 1 * u.val = 0; have := u.isLt; omega
  | ⟨1, _⟩ => show k0_off1 (grid0.coords t) (1 : Fin 3) + 1 * r.val = 512 * (t.val % 4) + r.val; omega
  | ⟨2, _⟩ => show k0_off1 (grid0.coords t) (2 : Fin 3) + 1 * d.val = d.val; omega

/-! ## The scratch, point by point -/

/-- At a batch's first tile the scratch is filled from the point's own blocks. -/
theorem scratch_first (c : Dev nD) (t : Fin cfg0.N) (h0 : t.val % 4 = 0) :
    (outsAt0 m c t.val t.isLt).2.1 = k0_pay2 (iblk m c 0 t) (iblk m c 2 t)
    ∧ (outsAt0 m c t.val t.isLt).2.2 = k0_pay3 (iblk m c 0 t) (iblk m c 3 t) := by
  rw [outsAt0_A m c t h0]
  dsimp only
  exact ⟨keys_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    vals_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)⟩

/-- At a later tile the scratch is what the point before left. -/
theorem scratch_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  dsimp only
  unfold sout0_B_0 sout0_B_1
  exact ⟨rfl, rfl⟩

/-- The keys and values of batch `b`, from a point's blocks. -/
theorem keys_of_blocks (c : Dev nD) (t : Fin cfg0.N) (k : Fin 2048) (e : Fin 384) :
    k0_pay2 (iblk m c 0 t) (iblk m c 2 t) (ix2 k e) = proj (argX m c) (argWk m c) (bat t.val t.isLt) k e :=
  (keys_apply (iblk m c 0 t) (iblk m c 2 t) k e).trans
    (batchProj_eq (argX m c) (argWk m c) (bat t.val t.isLt) (iblk m c 0 t) (iblk m c 2 t)
      (fun s d => x_block m c t 0 s d) (fun d e => wk_block m c t d e) k e)

theorem vals_of_blocks (c : Dev nD) (t : Fin cfg0.N) (k : Fin 2048) (e : Fin 384) :
    k0_pay3 (iblk m c 0 t) (iblk m c 3 t) (ix2 k e) = proj (argX m c) (argWv m c) (bat t.val t.isLt) k e :=
  (vals_apply (iblk m c 0 t) (iblk m c 3 t) k e).trans
    (batchProj_eq (argX m c) (argWv m c) (bat t.val t.isLt) (iblk m c 0 t) (iblk m c 3 t)
      (fun s d => x_block m c t 0 s d) (fun d e => wv_block m c t d e) k e)

/-- THE INVARIANT: after point `n` the scratch holds the keys and values of batch `n / 4`. -/
theorem scratch_inv (c : Dev nD) : ∀ (n : ℕ) (h : n < cfg0.N) (k : Fin 2048) (e : Fin 384),
    (outsAt0 m c n h).2.1 (ix2 k e) = proj (argX m c) (argWk m c) (bat n h) k e
    ∧ (outsAt0 m c n h).2.2 (ix2 k e) = proj (argX m c) (argWv m c) (bat n h) k e
  | 0, h, k, e => by
    obtain ⟨h1, h2⟩ := scratch_first m c ⟨0, h⟩ rfl
    exact ⟨(congrFun h1 (ix2 k e)).trans (keys_of_blocks m c ⟨0, h⟩ k e),
      (congrFun h2 (ix2 k e)).trans (vals_of_blocks m c ⟨0, h⟩ k e)⟩
  | n + 1, h, k, e => by
    by_cases h0 : (n + 1) % 4 = 0
    · obtain ⟨h1, h2⟩ := scratch_first m c ⟨n + 1, h⟩ h0
      exact ⟨(congrFun h1 (ix2 k e)).trans (keys_of_blocks m c ⟨n + 1, h⟩ k e),
        (congrFun h2 (ix2 k e)).trans (vals_of_blocks m c ⟨n + 1, h⟩ k e)⟩
    · obtain ⟨h1, h2⟩ := scratch_later m c ⟨n + 1, h⟩ h0
      obtain ⟨i1, i2⟩ := scratch_inv c n (Nat.lt_of_succ_lt h) k e
      have hb : bat n (Nat.lt_of_succ_lt h) = bat (n + 1) h := Fin.ext (by show n / 4 = (n + 1) / 4; omega)
      rw [← hb]
      exact ⟨(congrFun h1 (ix2 k e)).trans i1, (congrFun h2 (ix2 k e)).trans i2⟩

/-! ## What a point writes back -/

/-- Entry (u, r, e) of a point's block of the result array is entry (batch, 512 (n mod 4) + r, e) of the array. -/
theorem out_emb (t : Fin cfg0.N) (u : Fin 1) (r : Fin 512) (e : Fin 384) :
    ((cfg0.win 4).blk t).view.emb (ix3 u r e) = ix3 (bat t.val t.isLt) (qrow t.val r) e := by
  obtain ⟨-, -, -, -, -, -, -, -, -, e0, e1, e2, -⟩ := idx_facts t
  refine funext fun a => Fin.ext ?_
  match a with
  | ⟨0, _⟩ => show win0_4.index t (0 : Fin 3) * 1 + 1 * u.val = t.val / 4; have := u.isLt; omega
  | ⟨1, _⟩ => show win0_4.index t (1 : Fin 3) * 512 + 1 * r.val = 512 * (t.val % 4) + r.val; omega
  | ⟨2, _⟩ => show win0_4.index t (2 : Fin 3) * 384 + 1 * e.val = e.val; omega

/-- A tile's attention over keys and values that are the batch's projections is the attention at the tile's rows. -/
theorem tile_at (c : Dev nD) (t : Fin cfg0.N) (K V : Vec Ideal S2048x384 .bf16)
    (hK : ∀ (k : Fin 2048) (e : Fin 384), K (ix2 k e) = proj (argX m c) (argWk m c) (bat t.val t.isLt) k e)
    (hV : ∀ (k : Fin 2048) (e : Fin 384), V (ix2 k e) = proj (argX m c) (argWv m c) (bat t.val t.isLt) k e)
    (u : Fin 1) (r : Fin 512) (e : Fin 384) :
    k0_pay4 (qrows (grid0.coords t) (iblk m c 0 t)) (iblk m c 1 t) K V (ix3 u r e)
      = attn (argX m c) (argWq m c) (argWk m c) (argWv m c) (((cfg0.win 4).blk t).view.emb (ix3 u r e)) := by
  refine (out_apply (qrows (grid0.coords t) (iblk m c 0 t)) (iblk m c 1 t) K V u r e).trans ?_
  refine (tileOut_eq_attn (argX m c) (argWq m c) (argWk m c) (argWv m c) (bat t.val t.isLt) (qrow t.val)
    (qrows (grid0.coords t) (iblk m c 0 t)) (iblk m c 1 t) K V
    (fun r d => (qrows_apply t (iblk m c 0 t) 0 r d).trans (x_block m c t 0 (qrow t.val r) d))
    (fun d e => wq_block m c t d e) hK hV r e).trans ?_
  exact congrArg (attn (argX m c) (argWq m c) (argWk m c) (argWv m c)) (out_emb t u r e).symm

/-- WHAT POINT `t` WRITES BACK is block `t` of the attention of the argument arrays. -/
theorem flushed_eq (c : Dev nD) (t : Fin cfg0.N) :
    (dats m 0 c).flushed 4 t
      = ((cfg0.win 4).blk t).view.read (Elt Ideal) (attn (argX m c) (argWq m c) (argWk m c) (argWv m c)) := by
  by_cases h0 : t.val % 4 = 0
  · rw [flushed4_A m c t h0]
    funext y
    obtain ⟨u, r, e, rfl⟩ : ∃ (u : Fin 1) (r : Fin 512) (e : Fin 384), y = ix3 u r e := ⟨y 0, y 1, y 2, eq_ix3 y⟩
    show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) (ix3 u r e) = _
    refine (congrFun (out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix3 u r e)).trans ?_
    exact tile_at m c t _ _ (keys_of_blocks m c t) (vals_of_blocks m c t) u r e
  · rw [flushed4_B m c t h0]
    funext y
    obtain ⟨u, r, e, rfl⟩ : ∃ (u : Fin 1) (r : Fin 512) (e : Fin 384), y = ix3 u r e := ⟨y 0, y 1, y 2, eq_ix3 y⟩
    have hlt : t.val - 1 < cfg0.N := Nat.lt_of_le_of_lt (Nat.sub_le _ _) t.isLt
    have hb : bat (t.val - 1) hlt = bat t.val t.isLt := Fin.ext (by show (t.val - 1) / 4 = t.val / 4; omega)
    show out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) hlt).2.1 (outsAt0 m c (t.val - 1) hlt).2.2 (ix3 u r e) = _
    refine (congrFun (out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) hlt).2.1 (outsAt0 m c (t.val - 1) hlt).2.2) (ix3 u r e)).trans ?_
    exact tile_at m c t _ _ (fun k e => hb ▸ (scratch_inv m c (t.val - 1) hlt k e).1)
      (fun k e => hb ▸ (scratch_inv m c (t.val - 1) hlt k e).2) u r e

/-! ## The whole array -/

/-- An index of the result array is in point `t`'s block iff each coordinate is in the block's range on its axis. -/
theorem mem_blk (t : Fin cfg0.N) (i : S8x2048x384.Idx) :
    i ∈ ((cfg0.win 4).blk t).view.set ↔ ∀ a : Fin 3, win0_4.index t a * S1x512x384.size a ≤ (i a).val ∧ (i a).val < win0_4.index t a * S1x512x384.size a + S1x512x384.size a := by
  show i ∈ ((View.whole main_v6).slice (win0_4.rect t)).set ↔ _
  rw [View.set_slice_whole, Rect.mem_set_unit]
  exact Iff.rfl

/-- Every index of the result array is in some point's block: batch `b`, row `q` is in point 4 b + q / 512. -/
theorem cover (i : S8x2048x384.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 384 := (i 2).isLt
  have hlt : 4 * (i 0).val + (i 1).val / 512 < cfg0.N := by have := hN; omega
  refine ⟨⟨4 * (i 0).val + (i 1).val / 512, hlt⟩, flush0_4 _, ?_⟩
  obtain ⟨-, -, -, -, -, -, -, -, -, e0, e1, e2, -⟩ := idx_facts ⟨4 * (i 0).val + (i 1).val / 512, hlt⟩
  rw [mem_blk]
  intro a
  match a with
  | ⟨0, _⟩ =>
    show win0_4.index ⟨4 * (i 0).val + (i 1).val / 512, hlt⟩ (0 : Fin 3) * 1 ≤ (i 0).val ∧ (i 0).val < win0_4.index ⟨4 * (i 0).val + (i 1).val / 512, hlt⟩ (0 : Fin 3) * 1 + 1
    rw [e0]; show (4 * (i 0).val + (i 1).val / 512) / 4 * 1 ≤ (i 0).val ∧ (i 0).val < (4 * (i 0).val + (i 1).val / 512) / 4 * 1 + 1
    omega
  | ⟨1, _⟩ =>
    show win0_4.index ⟨4 * (i 0).val + (i 1).val / 512, hlt⟩ (1 : Fin 3) * 512 ≤ (i 1).val ∧ (i 1).val < win0_4.index ⟨4 * (i 0).val + (i 1).val / 512, hlt⟩ (1 : Fin 3) * 512 + 512
    rw [e1]; show (4 * (i 0).val + (i 1).val / 512) % 4 * 512 ≤ (i 1).val ∧ (i 1).val < (4 * (i 0).val + (i 1).val / 512) % 4 * 512 + 512
    omega
  | ⟨2, _⟩ =>
    show win0_4.index ⟨4 * (i 0).val + (i 1).val / 512, hlt⟩ (2 : Fin 3) * 384 ≤ (i 2).val ∧ (i 2).val < win0_4.index ⟨4 * (i 0).val + (i 1).val / 512, hlt⟩ (2 : Fin 3) * 384 + 384
    rw [e2]; omega

/-- THE RESULT ARRAY after the run is the attention of the argument arrays. -/
theorem final (c : Dev nD) :
    (dats m 0 c).arrAt 4 cfg0.N = attn (argX m c) (argWq m c) (argWk m c) (argWv m c) :=
  (dats m 0 c).arrAt_eq_of_cover 4 (attn (argX m c) (argWq m c) (argWk m c) (argWv m c))
    (fun t _ => flushed_eq m c t) cover

/-- The kernel's run, read: the result array at the attention, the arguments unchanged. -/
theorem run : θ_run defs (onTc (τ := τ) (main (F := Ideal))) ⟨m, fun _ => 0, ρ⟩ fun r => ∀ c : Dev nD,
      r.2.mem ((c : Thread nD τ).loc main_v6) = attn (argX m c) (argWq m c) (argWk m c) (argWv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Attn.Kernel

end
-- ==== Proof.RefAttention.lean ====
/-
  The reference program's result, read index by index, is the attention of `Attention.lean`.

  Each stage of the reference is read at an index from its operands: the three projections and the final product
  are sums over the contracted coordinate, the scores a sum over the feature coordinate, the row maximum a fold of
  `max` over the key coordinate started from minus infinity (the further `max` with minus infinity that the
  reference applies to it changes nothing: a fold is above its own starting value), the weights the exponential of
  the difference, the denominator zero plus their sum, the quotient an exact division.
  Every stage is stated at an index written by its coordinates, each coordinate of its literal range.
-/
import proofs.«123860_j51771535786510_2_alg».proof.Proof.Gen.ReferenceIdeal.Read
import proofs.«123860_j51771535786510_2_alg».proof.Proof.Attention
import Idealize.ShloMosaic.PureOps.Ideal.Laws
import Idealize.ShloMosaic.Lib.ValueIdx

noncomputable section

namespace Cert.Attn.Ref

open Cert.ReferenceIdeal Cert.ReferenceIdeal.Gen Cert.ReferenceIdeal.Read
open Idealize.ShloMosaic Idealize.ShloMosaic.ValueIdx Cert.Attn

variable (x : XIdx → EReal) (wq wk wv : WIdx → EReal)

/-- The query projection at (b, s, e). -/
theorem v0_apply (b : Fin 8) (s : Fin 2048) (e : Fin 384) :
    val_main_v0 (F := Ideal) x wq (ix3 b s e) = proj x wq b s e := by
  rw [val_main_v0_apply]; unfold proj
  exact Finset.sum_congr rfl fun k _ => congrArg₂ (· * ·)
    (congrArg x (funext fun a => by match a with | ⟨0, _⟩ => rfl | ⟨1, _⟩ => rfl | ⟨2, _⟩ => rfl))
    (congrArg wq (funext fun a => by match a with | ⟨0, _⟩ => rfl | ⟨1, _⟩ => rfl))

/-- The key projection at (b, s, e). -/
theorem v1_apply (b : Fin 8) (s : Fin 2048) (e : Fin 384) :
    val_main_v1 (F := Ideal) x wk (ix3 b s e) = proj x wk b s e := by
  rw [val_main_v1_apply]; unfold proj
  exact Finset.sum_congr rfl fun k _ => congrArg₂ (· * ·)
    (congrArg x (funext fun a => by match a with | ⟨0, _⟩ => rfl | ⟨1, _⟩ => rfl | ⟨2, _⟩ => rfl))
    (congrArg wk (funext fun a => by match a with | ⟨0, _⟩ => rfl | ⟨1, _⟩ => rfl))

/-- The value projection at (b, s, e). -/
theorem v2_apply (b : Fin 8) (s : Fin 2048) (e : Fin 384) :
    val_main_v2 (F := Ideal) x wv (ix3 b s e) = proj x wv b s e := by
  rw [val_main_v2_apply]; unfold proj
  exact Finset.sum_congr rfl fun k _ => congrArg₂ (· * ·)
    (congrArg x (funext fun a => by match a with | ⟨0, _⟩ => rfl | ⟨1, _⟩ => rfl | ⟨2, _⟩ => rfl))
    (congrArg wv (funext fun a => by match a with | ⟨0, _⟩ => rfl | ⟨1, _⟩ => rfl))

/-- The scores at (b, q, k): the query row and the key row, feature by feature. -/
theorem v3_apply (b : Fin 8) (q k : Fin 2048) :
    val_main_v3 (F := Ideal) x wq wk (ix3 b q k) = score x wq wk b q k := by
  rw [val_main_v3_apply]; unfold score
  refine Finset.sum_congr rfl fun e _ => ?_
  have el : lidx_main_v3 (ix3 b q k) e = ix3 b q e :=
    funext fun a => by match a with | ⟨0, _⟩ => rfl | ⟨1, _⟩ => rfl | ⟨2, _⟩ => rfl
  have er : ridx_main_v3 (ix3 b q k) e = ix3 b k e :=
    funext fun a => by match a with | ⟨0, _⟩ => rfl | ⟨1, _⟩ => rfl | ⟨2, _⟩ => rfl
  rw [el, er, v0_apply, v1_apply]

/-- The shape fact that names the index a row's reduction runs over: (b, q) with the key coordinate inserted. -/
theorem reduces_keys : S8x2048x2048.Reduces [2] S8x2048 := by decide

/-- (b, q) with key coordinate `k` inserted is (b, q, k). -/
theorem lift_keys (b : Fin 8) (q k : Fin 2048) : reduces_keys.lift (ix2 b q) k = ix3 b q k :=
  funext fun a => Fin.ext (by match a with | ⟨0, _⟩ => rfl | ⟨1, _⟩ => rfl | ⟨2, _⟩ => rfl)

/-- The row maximum at (b, q): the fold of `max` over the keys, from minus infinity. -/
theorem v4_apply (b : Fin 8) (q : Fin 2048) :
    val_main_v4 (F := Ideal) x wq wk (ix2 b q) = rowMax x wq wk b q := by
  unfold val_main_v4
  refine (Host.reduce_eq_fold_single FloatOps.maximumf _ _ reducesTo_S8x2048x2048_S8x2048_d2 reduces_keys h_S_
    (ix2 b q)).trans ?_
  unfold rowMax
  refine congrArg (fun f => (Finset.univ : Finset (Fin 2048)).fold max ninf f) (funext fun k => ?_)
  exact (congrArg (val_main_v3 (F := Ideal) x wq wk) (lift_keys b q k)).trans (v3_apply x wq wk b q k)

/-- The maximum the reference subtracts: its extra `max` with minus infinity is absorbed. -/
theorem v6_apply (b : Fin 8) (q : Fin 2048) :
    val_main_v6 (F := Ideal) x wq wk (ix2 b q) = rowMax x wq wk b q := by
  rw [val_main_v6_apply, val_main_v5_apply, val_main_cst_0_apply, v4_apply]
  unfold rowMax
  exact max_start_fold _ _ _

/-- The weights at (b, q, k). -/
theorem v10_apply (b : Fin 8) (q k : Fin 2048) :
    val_main_v10 (F := Ideal) x wq wk (ix3 b q k) = weight x wq wk b q k := by
  rw [val_main_v10_apply, val_main_v9_apply, val_main_v8_apply, val_main_v7_apply]
  have ei : idx_main_v7 (idx_main_v8 (ix3 b q k)) = ix2 b q :=
    funext fun a => by match a with | ⟨0, _⟩ => rfl | ⟨1, _⟩ => rfl
  rw [ei, v6_apply, v3_apply]
  rfl

/-- The denominator at (b, q): zero plus the sum of the row's weights. -/
theorem v11_apply (b : Fin 8) (q : Fin 2048) :
    val_main_v11 (F := Ideal) x wq wk (ix2 b q) = rowSum x wq wk b q := by
  rw [val_main_v11_apply, val_main_cst_1_apply]
  show Ideal.ofBits .f32 0x00000000#32 + _ = _
  rw [Ideal.ofBits_zero_f32, zero_add]; unfold rowSum
  refine Finset.sum_congr rfl fun k _ => ?_
  have ei : idx_main_v11 (ix2 b q) k = ix3 b q k :=
    funext fun a => by match a with | ⟨0, _⟩ => rfl | ⟨1, _⟩ => rfl | ⟨2, _⟩ => rfl
  rw [ei, v10_apply]

/-- The normalised weights at (b, q, k). -/
theorem v14_apply (b : Fin 8) (q k : Fin 2048) :
    val_main_v14 (F := Ideal) x wq wk (ix3 b q k)
      = Ideal.div (weight x wq wk b q k) (rowSum x wq wk b q) := by
  rw [val_main_v14_apply, val_main_v13_apply, val_main_v12_apply]
  have ei : idx_main_v12 (idx_main_v13 (ix3 b q k)) = ix2 b q :=
    funext fun a => by match a with | ⟨0, _⟩ => rfl | ⟨1, _⟩ => rfl
  rw [ei, v11_apply, v10_apply]
  rfl

/-- THE REFERENCE IS THE ATTENTION: its last stage, as a whole array, is `attn`. -/
theorem result_eq : val_main_v15 (F := Ideal) x wq wk wv = attn x wq wk wv := by
  funext i
  obtain ⟨b, q, e, rfl⟩ : ∃ (b : Fin 8) (q : Fin 2048) (e : Fin 384), i = ix3 b q e := ⟨i 0, i 1, i 2, eq_ix3 i⟩
  rw [val_main_v15_apply]
  show _ = ∑ k : Fin 2048, Ideal.div (weight x wq wk b q k) (rowSum x wq wk b q) * proj x wv b k e
  refine Finset.sum_congr rfl fun k _ => ?_
  have el : lidx_main_v15 (ix3 b q e) k = ix3 b q k :=
    funext fun a => by match a with | ⟨0, _⟩ => rfl | ⟨1, _⟩ => rfl | ⟨2, _⟩ => rfl
  have er : ridx_main_v15 (ix3 b q e) k = ix3 b k e :=
    funext fun a => by match a with | ⟨0, _⟩ => rfl | ⟨1, _⟩ => rfl | ⟨2, _⟩ => rfl
  rw [el, er, v14_apply, v2_apply]

end Cert.Attn.Ref

end
-- ==== Proof.lean ====
/-
  A fused single-head attention kernel against its plain reference, equal over the extended reals.

  Both programs take an input of shape [8, 2048, 384] and three [384, 384] weights (stored [out, in]) and return,
  at (batch b, position q, feature e),
      sum over k of ( exp (s[b,q,k] - max over k' of s[b,q,k']) / sum over k'' of exp (s[b,q,k''] - max) ) * V[b,k,e],
  where Q, K, V are the input's rows against the weights' rows and s[b,q,k] is the sum over features of
  Q[b,q,.] * K[b,k,.]; there is no 1/sqrt(d) scale on either side.
  The reference computes this with whole-array operations. The kernel walks a grid of 8 batches by 4 tiles of 512
  query rows: at the first tile of a batch it projects the whole batch onto the key and value weights into two
  scratch buffers, which the later tiles of the batch reuse; at every tile it projects the tile's rows onto the
  query weight, scores them against all 2048 keys, normalises each row, and multiplies by the values. The weights
  reach it already transposed, and every change of float format is the identity on extended reals.
  The two sides are the same sums, maxima, exponentials and quotients of the same entries, so no entry needs to be
  finite: the precondition is never opened. The one difference in spelling, the reference's extra maximum of a row
  maximum with minus infinity, is absorbed because a fold lies above its starting value.
  `Attention.lean` states the function; `RefAttention.lean` reads the reference's stages as it; `Tile.lean`,
  `Products.lean`, `Stages.lean` and `Pieces.lean` read one grid point's work as a tile of it; `Blocks.lean`
  carries the scratch from point to point and assembles the 32 blocks into the result array.
  No operation of the kernel is replaced on the way to the extended reals: the kernel read there is its own text.
-/
import proofs.«123860_j51771535786510_2_alg».proof.Defs
import proofs.«123860_j51771535786510_2_alg».proof.Proof.Gen.Kernel
import proofs.«123860_j51771535786510_2_alg».proof.Proof.Gen.Kernel.Skeleton
import proofs.«123860_j51771535786510_2_alg».proof.Proof.Gen.Kernel.Launch
import proofs.«123860_j51771535786510_2_alg».proof.Proof.Gen.Kernel.Points
import proofs.«123860_j51771535786510_2_alg».proof.Proof.Gen.Kernel.Frame
import proofs.«123860_j51771535786510_2_alg».proof.Proof.Gen.KernelIdeal
import proofs.«123860_j51771535786510_2_alg».proof.Proof.Gen.KernelIdeal.Skeleton
import proofs.«123860_j51771535786510_2_alg».proof.Proof.Gen.KernelIdeal.Launch
import proofs.«123860_j51771535786510_2_alg».proof.Proof.Gen.KernelIdeal.Points
import proofs.«123860_j51771535786510_2_alg».proof.Proof.Gen.KernelIdeal.Frame
import proofs.«123860_j51771535786510_2_alg».proof.Proof.Gen.ReferenceIdeal
import proofs.«123860_j51771535786510_2_alg».proof.Proof.Gen.Pre_finite_inputs
import proofs.«123860_j51771535786510_2_alg».proof.Proof.Gen.KernelIdeal.Value
import proofs.«123860_j51771535786510_2_alg».proof.Proof.Gen.ReferenceIdeal.Run
import proofs.«123860_j51771535786510_2_alg».proof.Proof.Gen.ReferenceIdeal.Read
import proofs.«123860_j51771535786510_2_alg».proof.Proof.Blocks
import proofs.«123860_j51771535786510_2_alg».proof.Proof.RefAttention
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the four arguments, both programs end with the attention of those arguments as
    their result: the kernel's blocks assemble to it, the reference's last stage is it. -/
theorem algebraic : Cert.algebraic_KernelIdeal_ReferenceIdeal := by
  intro m ρ m' ρ' _ hagree
  refine ⟨fun c => Cert.Attn.attn (Cert.Attn.Kernel.argX m c) (Cert.Attn.Kernel.argWq m c)
    (Cert.Attn.Kernel.argWk m c) (Cert.Attn.Kernel.argWv m c), Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Attn.Ref.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
